-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x2048 : Shape := ⟨3, ![32768, 1, 2048]⟩
abbrev S_ : Shape := ⟨0, ![]⟩

class Facts : Prop where
  bcast_S_S32768x1x2048 : S_.BroadcastsInDim S32768x1x2048 (![] : Fin 0 → Fin S32768x1x2048.rank)
  reducesTo_S32768x1x2048_S_d0_1_2 : S32768x1x2048.ReducesTo [0, 1, 2] S_
  h_S_ : 0 < S_.numel

variable [Facts]

def fn {F : FTy → Type} [FloatOps F] (main_arg0 : FVec F S32768x1x2048 .f32) : IVec S_ 1 :=
  let main_v0 : FVec F S32768x1x2048 .f32 := Host.absf main_arg0
  let main_cst : FVec F S_ .f32 := constant S_ .f32 0x7F800000#32
  let main_v1 : FVec F S32768x1x2048 .f32 := broadcastInDim S32768x1x2048 ![] bcast_S_S32768x1x2048 main_cst
  let main_v2 : IVec S32768x1x2048 1 := cmpf .olt main_v0 main_v1
  let main_c : IVec S_ 1 := constantI S_ 1 1#1
  let main_v3 : IVec S_ 1 := (fun x v => Host.reduce IntOp.andi x v reducesTo_S32768x1x2048_S_d0_1_2 h_S_) main_v2 main_c
  main_v3
-- ==== Kernel.lean ====
abbrev S32768x1x2048 : Shape := ⟨3, ![32768, 1, 2048]⟩
abbrev S32768x2048 : Shape := ⟨2, ![32768, 2048]⟩
abbrev S16x2048 : Shape := ⟨2, ![16, 2048]⟩
abbrev S1024x1x2048 : Shape := ⟨3, ![1024, 1, 2048]⟩
abbrev S1024x2048 : Shape := ⟨2, ![1024, 2048]⟩
abbrev S8x2048 : Shape := ⟨2, ![8, 2048]⟩
abbrev S1x2048 : Shape := ⟨2, ![1, 2048]⟩
abbrev S2048 : Shape := ⟨1, ![2048]⟩
abbrev S2x8x2048 : Shape := ⟨3, ![2, 8, 2048]⟩
abbrev S2x1x2048 : Shape := ⟨3, ![2, 1, 2048]⟩
abbrev S2x2048 : Shape := ⟨2, ![2, 2048]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32768x1x2048, .f32⟩
  | .hbm, ⟨1, _⟩ => ⟨S32768x2048, .f32⟩
  | .hbm, ⟨2, _⟩ => ⟨S16x2048, .f32⟩
  | .hbm, ⟨3, _⟩ => ⟨S2x8x2048, .f32⟩
  | .hbm, ⟨4, _⟩ => ⟨S2x1x2048, .f32⟩
  | .hbm, ⟨5, _⟩ => ⟨S2x2048, .f32⟩
  | .hbm, ⟨6, _⟩ => ⟨S_, .f32⟩
  | .hbm, ⟨7, _⟩ => ⟨S2048, .f32⟩
  | .hbm, ⟨8, _⟩ => ⟨S1x2048, .f32⟩
  | .local _ .vmem, ⟨0, _⟩ => ⟨S1024x1x2048, .f32⟩
  | .local _ .vmem, ⟨1, _⟩ => ⟨S1024x1x2048, .f32⟩
  | .local _ .vmem, ⟨2, _⟩ => ⟨S1024x2048, .f32⟩
  | .local _ .vmem, ⟨3, _⟩ => ⟨S1024x2048, .f32⟩
  | .local _ .vmem, ⟨4, _⟩ => ⟨S8x2048, .f32⟩
  | .local _ .vmem, ⟨5, _⟩ => ⟨S1x2048, .f32⟩
  | _, _ => ⟨S32768x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x1x2048_S1024x1x2048_0_0_0 : ∀ a, (![0, 0, 0] : Fin 3 → Nat) a + S1024x1x2048.size a ≤ S1024x1x2048.size a
  h_S1024x1x2048 : 0 < S1024x1x2048.numel
  shapeCasts_S1024x1x2048_S1024x2048 : S1024x1x2048.ShapeCasts S1024x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  inb_S8x2048_S8x2048_0_0 : ∀ a, (![0, 0] : Fin 2 → Nat) a + S8x2048.size a ≤ S8x2048.size a
  h_S8x2048 : 0 < S8x2048.numel
  inb_S8x2048_S1x2048_0_0 : ∀ a, (![0, 0] : Fin 2 → Nat) a + S1x2048.size a ≤ S8x2048.size a
  shapeCasts_S16x2048_S2x8x2048 : S16x2048.ShapeCasts S2x8x2048
  slices_S2x8x2048_S2x1x2048_0_0_0 : S2x8x2048.Slices ![0, 0, 0] S2x1x2048
  shapeCasts_S2x1x2048_S2x2048 : S2x1x2048.ShapeCasts S2x2048
  reducesTo_S2x2048_S2048_d0 : S2x2048.ReducesTo [0] S2048
  h_S_ : 0 < S_.numel
  bcast_S2048_S1x2048_1 : S2048.BroadcastsInDim S1x2048 (![1] : Fin 1 → Fin S1x2048.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1x2048.size a ≤ S32768x1x2048.size a
  hwx0_0 : ∀ i : grid0.Coords, EltTy.bits .f32 = 32 ∨ (Rect.block (s := S32768x1x2048) S1024x1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x2048.size a
  hwx0_1 : ∀ i : grid0.Coords, EltTy.bits .f32 = 32 ∨ (Rect.block (s := S32768x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x2048.size a
  hwx0_2 : ∀ i : grid0.Coords, EltTy.bits .f32 = 32 ∨ (Rect.block (s := S16x2048) S8x2048.size (cc0_transform_2 i) (hinb0_2 i)).WholeWords (EltTy.packing .f32)

variable [Facts₀]

abbrev win0_0 : Pipeline.Window sig grid0 :=
  Pipeline.Window.ofSpec (Memref.whole main_arg0) S1024x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x1x2048 : Shape := ⟨3, ![32768, 1, 2048]⟩
abbrev S_ : Shape := ⟨0, ![]⟩
abbrev S1x2048 : Shape := ⟨2, ![1, 2048]⟩
abbrev S1x1x2048 : Shape := ⟨3, ![1, 1, 2048]⟩
abbrev S32768x2048 : Shape := ⟨2, ![32768, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x1x2048, .f32⟩
  | .hbm, ⟨1, _⟩ => ⟨S_, .f32⟩
  | .hbm, ⟨2, _⟩ => ⟨S1x2048, .f32⟩
  | .hbm, ⟨3, _⟩ => ⟨S1x1x2048, .f32⟩
  | .hbm, ⟨4, _⟩ => ⟨S32768x1x2048, .f32⟩
  | .hbm, ⟨5, _⟩ => ⟨S32768x1x2048, .f32⟩
  | .hbm, ⟨6, _⟩ => ⟨S32768x2048, .f32⟩
  | .hbm, ⟨7, _⟩ => ⟨S_, .f32⟩
  | .hbm, ⟨8, _⟩ => ⟨S1x2048, .f32⟩
  | _, _ => ⟨S32768x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S1x2048 : S_.BroadcastsInDim S1x2048 (![] : Fin 0 → Fin S1x2048.rank)
  bcast_S1x2048_S1x1x2048_1_2 : S1x2048.BroadcastsInDim S1x1x2048 (![1, 2] : Fin 2 → Fin S1x1x2048.rank)
  bcast_S1x1x2048_S32768x1x2048_0_1_2 : S1x1x2048.BroadcastsInDim S32768x1x2048 (![0, 1, 2] : Fin 3 → Fin S32768x1x2048.rank)
  shapeCasts_S32768x1x2048_S32768x2048 : S32768x1x2048.ShapeCasts S32768x2048
  reducesTo_S32768x1x2048_S1x2048_d0 : S32768x1x2048.ReducesTo [0] S1x2048
  h_S_ : 0 < S_.numel

variable [Facts₀]

class Facts : Prop extends Facts₀ where

variable [Facts]
-- ==== Proof.Pieces.lean ====
/- What one run of the kernel body leaves behind, case by case.

   The body has three cases, by the position of the step inside its half of the rows: the first step of a half clears
   the running sum before adding its block; a middle step adds its block to the running sum it finds; the last step
   does the same and then writes the eight-row result block, all zeros with the running sum copied into row 0.
   In every case the first output's block is the biased input block, and the running sum left behind is
   "sum found (or zero, at a first step) plus the column sums of the biased block".
   These are equations between whole blocks, for any float interpretation: the stores cover their buffers through
   the whole-buffer rectangle at offset zero, so what is read back is the stored value itself. -/
import proofs.«133327_j32195074851337_2_alg».proof.Proof.Gen.KernelIdeal.Frame
import Idealize.ShloMosaic.Lib.Pipeline.Value
import Idealize.ShloMosaic.Lib.Tactic
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-! ## The first output's block: the biased input block, in every case -/

theorem first_A (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : cond0_0 i) (hc1 : ¬cond0_1 i)
    (x0 : Vec F S1024x1x2048 .f32) :
    out0_A_1 c i a2 h2 a3 h3 a4 h4 a5 h5 hc0 hc1 x0 = k0_pay2 x0 := by
  unfold out0_A_1
  rw [View.read_writes_eq_canon _ _ _ (cover0_A_1 c i a2 h2 a3 h3 a4 h4 a5 h5 hc0 hc1 x0)]
  unfold kernelRun0_A
  dsimp only
  sl_unfold_words
  rw [View.canon_unit_zero zero2]
  simp only [View.readAt_eq_ld, h2.read_unread, View.ld_unit_zero (S := S1024x1x2048) zero3]

theorem first_B (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : ¬cond0_0 i) (hc1 : ¬cond0_1 i)
    (x0 : Vec F S1024x1x2048 .f32) (xs0 : Vec F S1x2048 .f32) :
    out0_B_1 c i a2 h2 a3 h3 a4 h4 a5 h5 hc0 hc1 x0 xs0 = k0_pay2 x0 := by
  unfold out0_B_1
  rw [View.read_writes_eq_canon _ _ _ (cover0_B_1 c i a2 h2 a3 h3 a4 h4 a5 h5 hc0 hc1 x0 xs0)]
  unfold kernelRun0_B
  dsimp only
  sl_unfold_words
  rw [View.canon_unit_zero zero2]
  simp only [View.readAt_eq_ld, h2.read_unread, View.ld_unit_zero (S := S1024x1x2048) zero3]

theorem first_C (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : ¬cond0_0 i) (hc1 : cond0_1 i)
    (x0 : Vec F S1024x1x2048 .f32) (xs0 : Vec F S1x2048 .f32) :
    out0_C_1 c i a2 h2 a3 h3 a4 h4 a5 h5 hc0 hc1 x0 xs0 = k0_pay2 x0 := by
  unfold out0_C_1
  rw [View.read_writes_eq_canon _ _ _ (cover0_C_1 c i a2 h2 a3 h3 a4 h4 a5 h5 hc0 hc1 x0 xs0)]
  unfold kernelRun0_C
  dsimp only
  sl_unfold_words
  rw [View.canon_unit_zero zero2]
  simp only [View.readAt_eq_ld, h2.read_unread, View.ld_unit_zero (S := S1024x1x2048) zero3]

/-! ## The running sum left behind -/

/-- A first step clears the running sum, reads the cleared row back, and adds its block's column sums to it. -/
theorem sum_A (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : cond0_0 i) (hc1 : ¬cond0_1 i)
    (x0 : Vec F S1024x1x2048 .f32) :
    sout0_A_0 c i a2 h2 a3 h3 a4 h4 a5 h5 hc0 hc1 x0 = k0_pay3 x0 (k0_pay1 (F := F)) := by
  unfold sout0_A_0
  rw [View.read_writes_eq_canon _ _ _ (scover0_A_0 c i a2 h2 a3 h3 a4 h4 a5 h5 hc0 hc1 x0)]
  unfold kernelRun0_A
  dsimp only
  sl_unfold_words
  rw [View.canon_cons_unit_zero (S := S1x2048) zero2, View.readCov_unit_zero (S := S1x2048) _ zero2]
  simp only [View.readAt_eq_ld, h2.read_unread, View.ld_unit_zero (S := S1024x1x2048) zero3]

/-- A middle step adds its block's column sums to the running sum `xs0` it finds. -/
theorem sum_B (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : ¬cond0_0 i) (hc1 : ¬cond0_1 i)
    (x0 : Vec F S1024x1x2048 .f32) (xs0 : Vec F S1x2048 .f32) :
    sout0_B_0 c i a2 h2 a3 h3 a4 h4 a5 h5 hc0 hc1 x0 xs0 = k0_pay3 x0 xs0 := by
  unfold sout0_B_0
  rw [View.read_writes_eq_canon _ _ _ (scover0_B_0 c i a2 h2 a3 h3 a4 h4 a5 h5 hc0 hc1 x0 xs0)]
  unfold kernelRun0_B
  dsimp only
  sl_unfold_words
  rw [View.canon_unit_zero zero2]
  simp only [View.readAt_eq_ld, h2.read_unread, h5.read_unread, View.ld_unit_zero (S := S1024x1x2048) zero3,
    View.ld_unit_zero (S := S1x2048) zero2]

/-- So does a last step. -/
theorem sum_C (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : ¬cond0_0 i) (hc1 : cond0_1 i)
    (x0 : Vec F S1024x1x2048 .f32) (xs0 : Vec F S1x2048 .f32) :
    sout0_C_0 c i a2 h2 a3 h3 a4 h4 a5 h5 hc0 hc1 x0 xs0 = k0_pay3 x0 xs0 := by
  unfold sout0_C_0
  rw [View.read_writes_eq_canon _ _ _ (scover0_C_0 c i a2 h2 a3 h3 a4 h4 a5 h5 hc0 hc1 x0 xs0)]
  unfold kernelRun0_C
  dsimp only
  sl_unfold_words
  rw [View.canon_unit_zero zero2]
  simp only [View.readAt_eq_ld, h2.read_unread, h5.read_unread, View.ld_unit_zero (S := S1024x1x2048) zero3,
    View.ld_unit_zero (S := S1x2048) zero2]

/-! ## The eight-row result block a last step writes: zeros, then the new running sum over row 0 -/

/-- Row 0 of the result block is the running sum the step has just stored. -/
theorem result_row0 (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : ¬cond0_0 i) (hc1 : cond0_1 i)
    (x0 : Vec F S1024x1x2048 .f32) (xs0 : Vec F S1x2048 .f32) (d : Fin 2048) :
    out0_C_2 c i a2 h2 a3 h3 a4 h4 a5 h5 hc0 hc1 x0 xs0 (ix2 (0 : Fin 8) d) = k0_pay3 x0 xs0 (ix2 (0 : Fin 1) d) := by
  unfold out0_C_2
  rw [View.read_writes_eq_canon _ _ _ (cover0_C_2 c i a2 h2 a3 h3 a4 h4 a5 h5 hc0 hc1 x0 xs0)]
  unfold kernelRun0_C
  dsimp only
  sl_unfold_words
  have e : (ix2 (0 : Fin 8) d : S8x2048.Idx)
      = (Rect.unit (s := S8x2048) ![0, 0] S1x2048.size inb_S8x2048_S1x2048_0_0).emb (ix2 (0 : Fin 1) d) := by
    funext a; apply Fin.ext
    match a with
    | ⟨0, _⟩ => rfl
    | ⟨1, _⟩ => show d.val = 0 + 1 * d.val; omega
  refine (congrArg _ e).trans ((View.canon_cons_emb _ _ _ _).trans ?_)
  rw [View.readCov_unit_zero (S := S1x2048) _ zero2]
  simp only [View.readAt_eq_ld, h2.read_unread, h5.read_unread, View.ld_unit_zero (S := S1024x1x2048) zero3,
    View.ld_unit_zero (S := S1x2048) zero2]

/-- The other seven rows keep the zeros stored first. -/
theorem result_rest (c : Dev nD) (i : grid0.Coords) (a2 : Memref sig .tc .vmem S1024x1x2048 .f32) (h2 : a2.IsWhole)
    (a3 : Memref sig .tc .vmem S1024x2048 .f32) (h3 : a3.IsWhole) (a4 : Memref sig .tc .vmem S8x2048 .f32) (h4 : a4.IsWhole)
    (a5 : Memref sig .tc .vmem S1x2048 .f32) (h5 : a5.IsWhole) (hc0 : ¬cond0_0 i) (hc1 : cond0_1 i)
    (x0 : Vec F S1024x1x2048 .f32) (xs0 : Vec F S1x2048 .f32) (r : Fin 8) (hr : r.val ≠ 0) (d : Fin 2048) :
    out0_C_2 c i a2 h2 a3 h3 a4 h4 a5 h5 hc0 hc1 x0 xs0 (ix2 r d) = k0_pay4 (F := F) (ix2 r d) := by
  unfold out0_C_2
  rw [View.read_writes_eq_canon _ _ _ (cover0_C_2 c i a2 h2 a3 h3 a4 h4 a5 h5 hc0 hc1 x0 xs0)]
  unfold kernelRun0_C
  dsimp only
  sl_unfold_words
  have out : (ix2 r d : S8x2048.Idx) ∉ (Rect.unit (s := S8x2048) ![0, 0] S1x2048.size inb_S8x2048_S1x2048_0_0).set := by
    rw [Rect.mem_set_unit]
    intro h
    have h0 : r.val < 0 + 1 := (h 0).2
    omega
  rw [View.canon_cons_of_not_mem _ _ out, View.canon_unit_zero zero2]

end Cert.KernelIdeal.Body

end
-- ==== Proof.LibSumBlocks.lean ====
/- A sum over `m · n` consecutive positions, cut into `m` blocks of `n`: in any commutative additive monoid,
   `∑ x < m·n, f x = ∑ a < m, ∑ b < n, f (n·a + b)`; and the same cut applied twice, for a sum over `m · (n · p)` positions
   read as `m` groups of `n` blocks of `p`. What joins a sum taken chunk by chunk (a grid axis, then a loop, then the rows of
   one chunk) to one sum over all the rows. -/
import Mathlib.Algebra.BigOperators.Fin
import Mathlib.Logic.Equiv.Fin.Basic

namespace Cert.Voxel

open Finset

/-- A sum over `Fin (m * n)` is the sum over the `m` blocks of the sums over each block's `n` positions. -/
theorem sum_blocks {M : Type*} [AddCommMonoid M] (m n : ℕ) (f : ℕ → M) :
    ∑ x : Fin (m * n), f x.val = ∑ a : Fin m, ∑ b : Fin n, f (n * a.val + b.val) := by
  rw [← Equiv.sum_comp finProdFinEquiv (fun x : Fin (m * n) => f x.val), Fintype.sum_prod_type]
  refine Finset.sum_congr rfl fun a _ => Finset.sum_congr rfl fun b _ => ?_
  show f (finProdFinEquiv (a, b)).val = _
  rw [finProdFinEquiv_apply_val, Nat.add_comm]

/-- The same with the outer index a natural number below `m`. -/
theorem sum_blocks_range {M : Type*} [AddCommMonoid M] (m n : ℕ) (f : ℕ → M) :
    ∑ x : Fin (m * n), f x.val = ∑ a ∈ range m, ∑ b : Fin n, f (n * a + b.val) := by
  rw [sum_blocks, Fin.sum_univ_eq_sum_range (fun a => ∑ b : Fin n, f (n * a + b.val)) m]

/-- Cut twice: `m` groups of `n` blocks of `p` positions. -/
theorem sum_blocks₂ {M : Type*} [AddCommMonoid M] (m n p : ℕ) (f : ℕ → M) :
    ∑ x : Fin (m * (n * p)), f x.val
      = ∑ a ∈ range m, ∑ b ∈ range n, ∑ c : Fin p, f (n * p * a + (p * b + c.val)) := by
  rw [sum_blocks_range]
  refine Finset.sum_congr rfl fun a _ => ?_
  exact sum_blocks_range n p (fun x => f (n * p * a + x))

end Cert.Voxel
-- ==== Proof.Total.lean ====
/- The biased rows of the input and their sum over all 32768 rows, taken two ways.

   Write x for the input, a [32768, 1, 2048] array of extended reals, and b for the value of the f32 word of 1.0.
   Row t contributes x(t, 0, d) + b to column d. One side adds all 32768 rows of a column in a single sum. The other
   side cuts the rows into 32 consecutive blocks of 1024 rows, lets each half of the rows (blocks 0..15, blocks 16..31)
   keep a running sum of its blocks, and adds the two halves at the end. Addition of extended reals is commutative and
   associative with no side condition, so the two are the same number: no finiteness of x is used anywhere. -/
import Idealize.ShloMosaic.PureOps.Ideal.Laws
import Idealize.ShloMosaic.Lib.ValueIdx
import proofs.«133327_j32195074851337_2_alg».proof.Proof.LibSumBlocks

noncomputable section

namespace Cert.BiasSum

open Idealize.ShloMosaic Idealize.ShloMosaic.ValueIdx Finset

/-- The input's index type and its contents: 32768 rows, a unit middle axis, 2048 columns. -/
abbrev Input : Type := (⟨3, ![32768, 1, 2048]⟩ : Shape).Idx → EReal

/-- The bias added to every entry: the value of the f32 word of 1.0. -/
def bias : EReal := Ideal.ofBits .f32 0x3F800000#32

/-- Column `d` of biased row `t`, as a function of a natural row number (zero past the last row, where nothing reads it). -/
def row (x : Input) (d : Fin 2048) (t : ℕ) : EReal :=
  if h : t < 32768 then x (ix3 (⟨t, h⟩ : Fin 32768) (0 : Fin 1) d) + bias else 0

theorem row_of_lt (x : Input) (d : Fin 2048) (t : ℕ) (h : t < 32768) :
    row x d t = x (ix3 (⟨t, h⟩ : Fin 32768) (0 : Fin 1) d) + bias := dif_pos h

/-- Column `d` of the sum of the 1024 biased rows of block `n` (rows 1024 n to 1024 n + 1023). -/
def blockSum (x : Input) (d : Fin 2048) (n : ℕ) : EReal := ∑ r : Fin 1024, row x d (1024 * n + r.val)

/-- The running sum of a half after the block at position `n` of the 32: the blocks of `n`'s half from its first
    (position n - n % 16) up to `n`. -/
def halfSum (x : Input) (d : Fin 2048) (n : ℕ) : EReal := ∑ j ∈ range (n % 16 + 1), blockSum x d (n - n % 16 + j)

/-- At the first block of a half the running sum is that block's sum. -/
theorem halfSum_first (x : Input) (d : Fin 2048) (n : ℕ) (h : n % 16 = 0) : halfSum x d n = blockSum x d n := by
  unfold halfSum
  rw [h, Finset.sum_range_one]
  exact congrArg (blockSum x d) (by omega)

/-- At a later block it is the running sum after the block before, plus this block's sum. -/
theorem halfSum_next (x : Input) (d : Fin 2048) (n : ℕ) (h : n % 16 ≠ 0) :
    halfSum x d n = halfSum x d (n - 1) + blockSum x d n := by
  unfold halfSum
  have e1 : (n - 1) % 16 + 1 = n % 16 := by omega
  have e2 : n - 1 - (n - 1) % 16 = n - n % 16 := by omega
  rw [Finset.sum_range_succ, e1, e2]
  exact congrArg (_ + blockSum x d ·) (by omega)

/-- All 32768 rows of a column are the two halves' running sums after their last blocks (positions 15 and 31). -/
theorem sum_rows_eq_halves (x : Input) (d : Fin 2048) :
    ∑ t : Fin 32768, row x d t.val = halfSum x d 15 + halfSum x d 31 := by
  have cut := Cert.Voxel.sum_blocks₂ 2 16 1024 (row x d)
  refine Eq.trans (show ∑ t : Fin 32768, row x d t.val = ∑ t : Fin (2 * (16 * 1024)), row x d t.val from rfl) ?_
  rw [cut, Finset.sum_range_succ, Finset.sum_range_one]
  unfold halfSum blockSum
  refine congrArg₂ (· + ·) ?_ ?_
  · refine Finset.sum_congr rfl fun j _ => Finset.sum_congr rfl fun r _ => congrArg (row x d) ?_
    omega
  · refine Finset.sum_congr rfl fun j _ => Finset.sum_congr rfl fun r _ => congrArg (row x d) ?_
    omega

end Cert.BiasSum

end
-- ==== Proof.Entries.lean ====
/- The body's arithmetic on the extended reals, one entry at a time.

   The biased block has x(r, 0, d) + b at (r, d). The running-sum update adds, to entry d of the sum it is given, the
   sum over the 1024 rows r of the biased block's column d. The cleared running sum and the cleared result block are
   zero everywhere. -/
import proofs.«133327_j32195074851337_2_alg».proof.Proof.Gen.KernelIdeal.Skeleton
import proofs.«133327_j32195074851337_2_alg».proof.Proof.Total
import Idealize.ShloMosaic.Lib.Pipeline.Value
import Idealize.ShloMosaic.Lib.ValueIdx
import Idealize.ShloMosaic.PureOps.Ideal.Laws

noncomputable section

namespace Cert.KernelIdeal.Entries

open Cert.KernelIdeal Cert.KernelIdeal.Gen Cert.BiasSum
open Idealize.ShloMosaic Idealize.ShloMosaic.ValueIdx

/-- Entry (r, d) of the biased block is the input block's entry (r, 0, d) plus the bias: the cast from [1024, 1, 2048]
    to [1024, 2048] keeps the row-major position. -/
theorem biased_apply (v3 : Vec Ideal S1024x1x2048 .f32) (r : Fin 1024) (d : Fin 2048) :
    k0_pay2 (F := Ideal) v3 (ix2 r d) = v3 (ix3 r (0 : Fin 1) d) + bias := by
  unfold k0_pay2
  show shapeCast S1024x2048 v3 shapeCasts_S1024x1x2048_S1024x2048 (ix2 r d) + Ideal.ofBits .f32 0x3F800000#32 = _
  rw [shapeCast_apply v3 shapeCasts_S1024x1x2048_S1024x2048 (ix2 r d) (ix3 r (0 : Fin 1) d) (by
    rw [Shape.rowMajor_val_three, Shape.rowMajor_val_two]
    show (r.val * 1 + 0) * 2048 + d.val = r.val * 2048 + d.val
    omega)]
  rfl

/-- The row inserted above column `d` at height `k` when the 1024 rows are summed away is (k, d). -/
theorem lift_rows (d : Fin 2048) (k : Fin 1024) :
    reduces_S1024x2048_S2048.lift (ix1 d) k = (ix2 k d : S1024x2048.Idx) :=
  funext fun a => Fin.ext (by match a with | ⟨0, _⟩ => rfl | ⟨1, _⟩ => rfl)

/-- The sum over the rows of a [1024, 2048] block, from the zero word, at column `d`. -/
theorem colSum_apply (src : FVec Ideal S1024x2048 .f32) (hacc : (0x00000000#32 : BitVec 32) = 0x00000000#32) (d : Fin 2048) :
    multiReduction (F := Ideal) .add [0] S2048 src 0x00000000#32 reduces_S1024x2048_S2048 (.inl rfl) hacc (ix1 d)
      = ∑ k : Fin 1024, src (ix2 k d) := by
  refine (Ideal.multiReduction_add_single src 0x00000000#32 reduces_S1024x2048_S2048 (.inl rfl) hacc (ix1 d)).trans ?_
  exact Finset.sum_congr rfl fun k _ => congrArg src (lift_rows d k)

/-- The running-sum update at column `d`: what it is given there, plus the biased block's column sum. -/
theorem update_apply (v3 : Vec Ideal S1024x1x2048 .f32) (v8 : Vec Ideal S1x2048 .f32) (d : Fin 2048) :
    k0_pay3 (F := Ideal) v3 v8 (ix2 (0 : Fin 1) d) = v8 (ix2 (0 : Fin 1) d) + ∑ r : Fin 1024, (v3 (ix3 r (0 : Fin 1) d) + bias) := by
  unfold k0_pay3
  rw [shapeCast_self]
  show v8 (ix2 (0 : Fin 1) d) + shapeCast S1x2048 (multiReduction (F := Ideal) .add [0] S2048 (k0_pay2 v3) 0x00000000#32
      reduces_S1024x2048_S2048 (.inl rfl) rfl) shapeCasts_S2048_S1x2048 (ix2 (0 : Fin 1) d) = _
  rw [shapeCast_apply _ shapeCasts_S2048_S1x2048 (ix2 (0 : Fin 1) d) (ix1 d) (by
    rw [Shape.rowMajor_val_two, Shape.rowMajor_val_one]
    show d.val = 0 * 2048 + d.val
    omega)]
  refine congrArg (v8 (ix2 (0 : Fin 1) d) + ·) ?_
  refine (colSum_apply (k0_pay2 v3) rfl d).trans ?_
  exact Finset.sum_congr rfl fun r _ => biased_apply v3 r d

/-- The cleared running sum is zero. -/
theorem cleared_apply (j : S1x2048.Idx) : k0_pay1 (F := Ideal) j = 0 := by
  unfold k0_pay1
  rw [shapeCast_self]
  exact Ideal.ofBits_zero_f32

/-- The cleared result block is zero. -/
theorem clearedBlock_apply (j : S8x2048.Idx) : k0_pay4 (F := Ideal) j = 0 := by
  unfold k0_pay4
  exact Ideal.ofBits_zero_f32

end Cert.KernelIdeal.Entries

end
-- ==== Proof.Steps.lean ====
/- What the buffers hold after each of the 32 grid steps, on the extended reals.

   Step t (t = 0 .. 31) works on input rows 1024 t .. 1024 t + 1023; steps 0..15 are the first half of the rows, steps
   16..31 the second. After step t: the first output's block is the biased input block; the running sum, at column d,
   is the sum of the biased rows of the blocks of t's half up to t (by induction on t: a first step starts from zero, a
   later step adds its block to what the step before left); and at a last step (t = 15, 31) the eight-row result block
   has that running sum in row 0 and zeros below. -/
import proofs.«133327_j32195074851337_2_alg».proof.Proof.Pieces
import proofs.«133327_j32195074851337_2_alg».proof.Proof.Entries

noncomputable section

namespace Cert.KernelIdeal.Steps

open Cert.KernelIdeal Cert.KernelIdeal.Gen Cert.BiasSum
open Idealize.ShloMosaic Idealize.ShloMosaic.TcCoe Idealize.ShloMosaic.ValueIdx Idealize.SL.Sem

variable (m : (ℓ : Loc nD τ sig) → Buf (Elt Ideal) ℓ)

/-- The input array, as the program is launched with it on core `c`. -/
abbrev inp (c : Dev nD) : Input := m ((c : Thread nD τ).loc main_arg0)

/-- Step `t` reads block `t` of the rows and the whole of the other two axes. -/
theorem in_index : ∀ t : Fin cfg0.N, win0_0.index t (0 : Fin 3) = t.val ∧ win0_0.index t (1 : Fin 3) = 0
    ∧ win0_0.index t (2 : Fin 3) = 0 :=
  (by decide +kernel : ∀ t : Fin grid0.N, _)

/-- Entry (r, 0, d) of the input block of step `t` is the input's entry (1024 t + r, 0, d). -/
theorem block_apply (c : Dev nD) (t : Fin cfg0.N) (r : Fin 1024) (d : Fin 2048) (h : 1024 * t.val + r.val < 32768) :
    (iblk m c 0 t : Vec Ideal S1024x1x2048 .f32) (ix3 r (0 : Fin 1) d)
      = inp m c (ix3 (⟨1024 * t.val + r.val, h⟩ : Fin 32768) (0 : Fin 1) d) := by
  obtain ⟨e0, e1, e2⟩ := in_index t
  unfold iblk
  rw [View.read_apply]
  show V m c main_arg0 _ = V m c main_arg0 _
  refine congrArg (V m c main_arg0) (funext fun a => Fin.ext ?_)
  match a with
  | ⟨0, _⟩ => show win0_0.index t (0 : Fin 3) * 1024 + 1 * r.val = 1024 * t.val + r.val; omega
  | ⟨1, _⟩ => show win0_0.index t (1 : Fin 3) * 1 + 1 * 0 = 0; omega
  | ⟨2, _⟩ => show win0_0.index t (2 : Fin 3) * 2048 + 1 * d.val = d.val; omega

/-- The column sums of the biased block of step `t` are the sums of the biased rows of block `t`. -/
theorem blockSum_eq (c : Dev nD) (t : Fin cfg0.N) (d : Fin 2048) (x0 : Vec Ideal S1024x1x2048 .f32)
    (hx : x0 = iblk m c 0 t) :
    ∑ r : Fin 1024, (x0 (ix3 r (0 : Fin 1) d) + bias) = blockSum (inp m c) d t.val := by
  subst hx
  have hN : t.val < 32 := lt_of_lt_of_eq t.isLt N_0
  unfold blockSum
  refine Finset.sum_congr rfl fun r _ => ?_
  have hr : r.val < 1024 := r.isLt
  have h : 1024 * t.val + r.val < 32768 := by omega
  rw [row_of_lt _ _ _ h]
  exact congrArg (· + bias) (block_apply m c t r d h)

/-! ## The first output's block -/

/-- After step `n` the first output's block is the biased input block of that step, whichever case the step is. -/
theorem first_eq (c : Dev nD) (n : ℕ) (h : n < cfg0.N) :
    (outsAt0 m c n h).1 = k0_pay2 (iblk m c 0 ⟨n, h⟩) := by
  let t : Fin cfg0.N := ⟨n, h⟩
  show (outsAt0 m c t.val t.isLt).1 = k0_pay2 (iblk m c 0 t)
  by_cases h0 : t.val % 16 = 0
  · have h1 : ¬t.val % 16 = 15 := by omega
    rw [outsAt0_A m c t h0 h1]
    dsimp only
    exact Body.first_A c (grid0.coords t) (ms0_0 t) (hs0_0 t) (ms0_1 t) (hs0_1 t) (ms0_2 t) (hs0_2 t) scM0_0 (Memref.isWhole_whole _) _ _ (iblk m c 0 t)
  · by_cases h1 : t.val % 16 = 15
    · rw [outsAt0_C m c t h0 h1]
      dsimp only
      exact Body.first_C c (grid0.coords t) (ms0_0 t) (hs0_0 t) (ms0_1 t) (hs0_1 t) (ms0_2 t) (hs0_2 t) scM0_0 (Memref.isWhole_whole _) _ _ (iblk m c 0 t) _
    · rw [outsAt0_B m c t h0 h1]
      dsimp only
      exact Body.first_B c (grid0.coords t) (ms0_0 t) (hs0_0 t) (ms0_1 t) (hs0_1 t) (ms0_2 t) (hs0_2 t) scM0_0 (Memref.isWhole_whole _) _ _ (iblk m c 0 t) _

/-! ## The running sum -/

/-- A first step leaves its block's column sums (it starts from zero). -/
theorem sum_first (c : Dev nD) (t : Fin cfg0.N) (h0 : t.val % 16 = 0) (d : Fin 2048) :
    (outsAt0 m c t.val t.isLt).2.2 (ix2 (0 : Fin 1) d) = blockSum (inp m c) d t.val := by
  have h1 : ¬t.val % 16 = 15 := by omega
  rw [outsAt0_A m c t h0 h1]
  dsimp only
  rw [Body.sum_A c (grid0.coords t) (ms0_0 t) (hs0_0 t) (ms0_1 t) (hs0_1 t) (ms0_2 t) (hs0_2 t) scM0_0 (Memref.isWhole_whole _) _ _ (iblk m c 0 t)]
  refine (Entries.update_apply (iblk m c 0 t) (k0_pay1 (F := Ideal)) d).trans ?_
  rw [Entries.cleared_apply, zero_add]
  exact blockSum_eq m c t d _ rfl

/-- A later step leaves what the step before left plus its block's column sums. -/
theorem sum_later (c : Dev nD) (t : Fin cfg0.N) (h0 : ¬t.val % 16 = 0) (d : Fin 2048) :
    (outsAt0 m c t.val t.isLt).2.2 (ix2 (0 : Fin 1) d)
      = (outsAt0 m c (t.val - 1) (Nat.lt_of_le_of_lt (Nat.sub_le _ _) t.isLt)).2.2 (ix2 (0 : Fin 1) d)
        + blockSum (inp m c) d t.val := by
  by_cases h1 : t.val % 16 = 15
  · rw [outsAt0_C m c t h0 h1]
    dsimp only
    rw [Body.sum_C c (grid0.coords t) (ms0_0 t) (hs0_0 t) (ms0_1 t) (hs0_1 t) (ms0_2 t) (hs0_2 t) scM0_0 (Memref.isWhole_whole _) _ _ (iblk m c 0 t)
      (outsAt0 m c (t.val - 1) (Nat.lt_of_le_of_lt (Nat.sub_le _ _) t.isLt)).2.2]
    refine (Entries.update_apply (iblk m c 0 t) _ d).trans ?_
    exact congrArg (_ + ·) (blockSum_eq m c t d _ rfl)
  · rw [outsAt0_B m c t h0 h1]
    dsimp only
    rw [Body.sum_B c (grid0.coords t) (ms0_0 t) (hs0_0 t) (ms0_1 t) (hs0_1 t) (ms0_2 t) (hs0_2 t) scM0_0 (Memref.isWhole_whole _) _ _ (iblk m c 0 t)
      (outsAt0 m c (t.val - 1) (Nat.lt_of_le_of_lt (Nat.sub_le _ _) t.isLt)).2.2]
    refine (Entries.update_apply (iblk m c 0 t) _ d).trans ?_
    exact congrArg (_ + ·) (blockSum_eq m c t d _ rfl)

/-- So after step `n` the running sum, at column `d`, is the sum of the blocks of `n`'s half up to `n`. -/
theorem sum_eq (c : Dev nD) (d : Fin 2048) :
    ∀ (n : ℕ) (h : n < cfg0.N), (outsAt0 m c n h).2.2 (ix2 (0 : Fin 1) d) = halfSum (inp m c) d n := by
  intro n
  induction n with
  | zero =>
    intro h
    rw [halfSum_first _ _ _ rfl]
    exact sum_first m c ⟨0, h⟩ rfl d
  | succ n ih =>
    intro h
    by_cases h0 : (n + 1) % 16 = 0
    · rw [halfSum_first _ _ _ h0]
      exact sum_first m c ⟨n + 1, h⟩ h0 d
    · rw [halfSum_next _ _ _ h0]
      refine (sum_later m c ⟨n + 1, h⟩ h0 d).trans ?_
      exact congrArg (· + blockSum (inp m c) d (n + 1)) (ih (Nat.lt_of_succ_lt h))

/-! ## The result block of a last step -/

/-- At a last step the eight-row result block has the half's sum in row 0 and zeros in rows 1 to 7. -/
theorem result_eq (c : Dev nD) (t : Fin cfg0.N) (h1 : t.val % 16 = 15) (r : Fin 8) (d : Fin 2048) :
    (outsAt0 m c t.val t.isLt).2.1 (ix2 r d) = if r.val = 0 then halfSum (inp m c) d t.val else 0 := by
  have h0 : ¬t.val % 16 = 0 := by omega
  have hs := sum_eq m c d t.val t.isLt
  rw [outsAt0_C m c t h0 h1] at hs ⊢
  dsimp only at hs ⊢
  by_cases hr : r.val = 0
  · obtain rfl : r = 0 := Fin.ext hr
    rw [if_pos hr]
    rw [Body.sum_C c (grid0.coords t) (ms0_0 t) (hs0_0 t) (ms0_1 t) (hs0_1 t) (ms0_2 t) (hs0_2 t) scM0_0 (Memref.isWhole_whole _) _ _ (iblk m c 0 t)
      (outsAt0 m c (t.val - 1) (Nat.lt_of_le_of_lt (Nat.sub_le _ _) t.isLt)).2.2] at hs
    exact (Body.result_row0 c (grid0.coords t) (ms0_0 t) (hs0_0 t) (ms0_1 t) (hs0_1 t) (ms0_2 t) (hs0_2 t) scM0_0 (Memref.isWhole_whole _) _ _ (iblk m c 0 t)
      (outsAt0 m c (t.val - 1) (Nat.lt_of_le_of_lt (Nat.sub_le _ _) t.isLt)).2.2 d).trans hs
  · rw [if_neg hr]
    exact (Body.result_rest c (grid0.coords t) (ms0_0 t) (hs0_0 t) (ms0_1 t) (hs0_1 t) (ms0_2 t) (hs0_2 t) scM0_0 (Memref.isWhole_whole _) _ _ (iblk m c 0 t)
      (outsAt0 m c (t.val - 1) (Nat.lt_of_le_of_lt (Nat.sub_le _ _) t.isLt)).2.2 r hr d).trans
      (Entries.clearedBlock_apply _)

end Cert.KernelIdeal.Steps

end
-- ==== Proof.Spec.lean ====
/- The two results as functions of the input, on the extended reals.

   ys(t, d) = x(t, 0, d) + b. carry(0, d) = the sum of the two halves' running sums after their last blocks, which is
   the sum of all 32768 biased rows of column d (Total). Between the kernel and its final sum sits a [16, 2048] array
   of partial results: row 8 h holds half h's sum (h = 0, 1), the other fourteen rows are zero. -/
import proofs.«133327_j32195074851337_2_alg».proof.Proof.Total

noncomputable section

namespace Cert.BiasSum

open Idealize.ShloMosaic Idealize.ShloMosaic.ValueIdx Finset

/-- The first result: every entry of the input plus the bias, the unit middle axis dropped. -/
def ys (x : Input) : (⟨2, ![32768, 2048]⟩ : Shape).Idx → EReal :=
  fun j => x (ix3 (j 0) (0 : Fin 1) (j 1)) + bias

/-- The second result: per column, the two halves' sums added. -/
def carry (x : Input) : (⟨2, ![1, 2048]⟩ : Shape).Idx → EReal :=
  fun j => halfSum x (j 1) 15 + halfSum x (j 1) 31

/-- The sixteen rows of partial results: row 8 h holds half h's sum, every other row is zero. -/
def partials (x : Input) : (⟨2, ![16, 2048]⟩ : Shape).Idx → EReal :=
  fun j => if (j 0).val % 8 = 0 then halfSum x (j 1) (16 * ((j 0).val / 8) + 15) else 0

/-- Entry (R, d) of the partial results. -/
theorem partials_apply (x : Input) (R : Fin 16) (d : Fin 2048) :
    partials x (ix2 R d) = if R.val % 8 = 0 then halfSum x d (16 * (R.val / 8) + 15) else 0 := rfl

/-- Adding rows 0 and 8 of the partial results, from zero, gives the second result. -/
theorem carry_of_partials (x : Input) (d : Fin 2048) :
    (0 : EReal) + (partials x (ix2 (0 : Fin 16) d) + partials x (ix2 (8 : Fin 16) d)) = carry x (ix2 (0 : Fin 1) d) := by
  have v0 : (0 : Fin 16).val = 0 := rfl
  have v8 : (8 : Fin 16).val = 8 := rfl
  have a0 : (0 : ℕ) % 8 = 0 := rfl
  have a8 : (8 : ℕ) % 8 = 0 := rfl
  rw [zero_add, partials_apply, partials_apply, v0, v8, if_pos a0, if_pos a8]
  rfl

/-- Adding all 32768 biased rows, from zero, gives the second result. -/
theorem carry_of_rows (x : Input) (d : Fin 2048) :
    (0 : EReal) + ∑ t : Fin 32768, row x d t.val = carry x (ix2 (0 : Fin 1) d) := by
  rw [zero_add, sum_rows_eq_halves]
  rfl

end Cert.BiasSum

end
-- ==== Proof.Arrays.lean ====
/- The two arrays the kernel leaves in memory, as whole functions of the input.

   The first output is written back at every step: step t writes rows 1024 t .. 1024 t + 1023, and every row lies in
   exactly one such block, so the array ends as `ys`. The array of partial results is written back only at the two last
   steps (t = 15 and t = 31): step 16 h + 15 writes rows 8 h .. 8 h + 7, the half's sum in the first of them and zeros
   in the rest, and these two blocks make up all sixteen rows, so the array ends as `partials`. -/
import proofs.«133327_j32195074851337_2_alg».proof.Proof.Steps
import proofs.«133327_j32195074851337_2_alg».proof.Proof.Spec

noncomputable section

namespace Cert.KernelIdeal.Arrays

open Cert.KernelIdeal Cert.KernelIdeal.Gen Cert.KernelIdeal.Steps Cert.BiasSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The first output -/

/-- Step `t` writes block `t` of the rows of the first output, all columns. -/
theorem first_index : ∀ t : Fin cfg0.N, win0_1.index t (0 : Fin 2) = t.val ∧ win0_1.index t (1 : Fin 2) = 0 :=
  (by decide +kernel : ∀ t : Fin grid0.N, _)

/-- What step `t` writes back is block `t` of `ys`. -/
theorem first_block (c : Dev nD) (t : Fin cfg0.N) :
    (dats m 0 c).flushed 1 t = ((cfg0.win 1).blk t).view.read (Elt Ideal) (ys (inp m c)) := by
  show (cfg0.win 1).cut (grid0.coords t) ((dats m 0 c).after 1 t) = _
  rw [after0_1, Steps.first_eq m c t.val t.isLt]
  obtain ⟨e0, e1⟩ := first_index t
  have hN : t.val < 32 := lt_of_lt_of_eq t.isLt N_0
  refine funext fun (y : S1024x2048.Idx) => ?_
  obtain ⟨r, d, rfl⟩ : ∃ (r : Fin 1024) (d : Fin 2048), y = ix2 r d := ⟨y 0, y 1, eq_ix2 y⟩
  have hr : r.val < 1024 := r.isLt
  have h : 1024 * t.val + r.val < 32768 := by omega
  refine (Entries.biased_apply (iblk m c 0 t) r d).trans ?_
  rw [Steps.block_apply m c t r d h, View.read_apply]
  show _ = ys (inp m c) (((cfg0.win 1).blk t).view.emb (ix2 r d))
  unfold ys
  refine congrArg (inp m c · + bias) (funext fun a => Fin.ext ?_)
  match a with
  | ⟨0, _⟩ => show 1024 * t.val + r.val = win0_1.index t (0 : Fin 2) * 1024 + 1 * r.val; omega
  | ⟨1, _⟩ => rfl
  | ⟨2, _⟩ => show d.val = win0_1.index t (1 : Fin 2) * 2048 + 1 * d.val; omega

/-- An index of the first output lies in step `t`'s block iff each coordinate is in the block's range. -/
theorem mem_first (t : Fin cfg0.N) (i : S32768x2048.Idx) :
    i ∈ ((cfg0.win 1).blk t).view.set ↔ ∀ a : Fin 2, win0_1.index t a * S1024x2048.size a ≤ (i a).val
      ∧ (i a).val < win0_1.index t a * S1024x2048.size a + S1024x2048.size a := by
  show i ∈ ((View.whole main_v0_0).slice (win0_1.rect t)).set ↔ _
  rw [View.set_slice_whole, Rect.mem_set_unit]
  exact Iff.rfl

/-- The first output after the run. -/
theorem first_final (c : Dev nD) : (dats m 0 c).arrAt 1 cfg0.N = ys (inp m c) :=
  (dats m 0 c).arrAt_eq_of_cover 1 (ys (inp m c)) (fun t _ => first_block m c t) fun i => by
    have h0 : (i 0).val < 32768 := (i 0).isLt
    have h1 : (i 1).val < 2048 := (i 1).isLt
    have hN : cfg0.N = 32 := N_0
    obtain ⟨t, ht⟩ : ∃ t : Fin cfg0.N, t.val = (i 0).val / 1024 := ⟨⟨(i 0).val / 1024, by omega⟩, rfl⟩
    obtain ⟨e0, e1⟩ := first_index t
    refine ⟨t, flush0_1 t, ?_⟩
    rw [mem_first]
    intro a
    match a with
    | ⟨0, _⟩ =>
      show win0_1.index t (0 : Fin 2) * 1024 ≤ (i 0).val ∧ (i 0).val < win0_1.index t (0 : Fin 2) * 1024 + 1024
      omega
    | ⟨1, _⟩ =>
      show win0_1.index t (1 : Fin 2) * 2048 ≤ (i 1).val ∧ (i 1).val < win0_1.index t (1 : Fin 2) * 2048 + 2048
      omega

/-! ## The partial results -/

/-- Step `t` addresses the eight-row block of its half, all columns. -/
theorem second_index : ∀ t : Fin cfg0.N, win0_2.index t (0 : Fin 2) = t.val / 16 ∧ win0_2.index t (1 : Fin 2) = 0 :=
  (by decide +kernel : ∀ t : Fin grid0.N, _)

/-- What a last step writes back is its eight-row block of `partials`. -/
theorem second_block (c : Dev nD) (t : Fin cfg0.N) (hf : (cfg0.win 2).flush t = true) :
    (dats m 0 c).flushed 2 t = ((cfg0.win 2).blk t).view.read (Elt Ideal) (partials (inp m c)) := by
  have h15 : t.val % 16 = 15 := (flush0_2 t).mp hf
  show (cfg0.win 2).cut (grid0.coords t) ((dats m 0 c).after 2 t) = _
  rw [after0_2]
  obtain ⟨e0, e1⟩ := second_index t
  have hN : t.val < 32 := lt_of_lt_of_eq t.isLt N_0
  refine funext fun (y : S8x2048.Idx) => ?_
  obtain ⟨r, d, rfl⟩ : ∃ (r : Fin 8) (d : Fin 2048), y = ix2 r d := ⟨y 0, y 1, eq_ix2 y⟩
  have hr : r.val < 8 := r.isLt
  refine (Steps.result_eq m c t h15 r d).trans ?_
  rw [View.read_apply]
  have hrow : 8 * (t.val / 16) + r.val < 16 := by omega
  have e : ((cfg0.win 2).blk t).view.emb (ix2 r d) = (ix2 (⟨8 * (t.val / 16) + r.val, hrow⟩ : Fin 16) d : S16x2048.Idx) := by
    refine funext fun a => Fin.ext ?_
    match a with
    | ⟨0, _⟩ => show win0_2.index t (0 : Fin 2) * 8 + 1 * r.val = 8 * (t.val / 16) + r.val; omega
    | ⟨1, _⟩ => show win0_2.index t (1 : Fin 2) * 2048 + 1 * d.val = d.val; omega
  rw [e]
  show _ = if (8 * (t.val / 16) + r.val) % 8 = 0 then halfSum (inp m c) d (16 * ((8 * (t.val / 16) + r.val) / 8) + 15) else 0
  by_cases hr0 : r.val = 0
  · rw [if_pos hr0, if_pos (by omega)]
    exact congrArg (halfSum (inp m c) d) (by omega)
  · rw [if_neg hr0, if_neg (by omega)]

/-- An index of the partial results lies in step `t`'s block iff each coordinate is in the block's range. -/
theorem mem_second (t : Fin cfg0.N) (i : S16x2048.Idx) :
    i ∈ ((cfg0.win 2).blk t).view.set ↔ ∀ a : Fin 2, win0_2.index t a * S8x2048.size a ≤ (i a).val
      ∧ (i a).val < win0_2.index t a * S8x2048.size a + S8x2048.size a := by
  show i ∈ ((View.whole main_v0_1).slice (win0_2.rect t)).set ↔ _
  rw [View.set_slice_whole, Rect.mem_set_unit]
  exact Iff.rfl

/-- The partial results after the run. -/
theorem second_final (c : Dev nD) : (dats m 0 c).arrAt 2 cfg0.N = partials (inp m c) :=
  (dats m 0 c).arrAt_eq_of_cover 2 (partials (inp m c)) (fun t hf => second_block m c t hf) fun i => by
    have h0 : (i 0).val < 16 := (i 0).isLt
    have h1 : (i 1).val < 2048 := (i 1).isLt
    have hN : cfg0.N = 32 := N_0
    obtain ⟨t, ht⟩ : ∃ t : Fin cfg0.N, t.val = 16 * ((i 0).val / 8) + 15 := ⟨⟨16 * ((i 0).val / 8) + 15, by omega⟩, rfl⟩
    obtain ⟨e0, e1⟩ := second_index t
    refine ⟨t, (flush0_2 t).mpr (by omega), ?_⟩
    rw [mem_second]
    intro a
    match a with
    | ⟨0, _⟩ =>
      show win0_2.index t (0 : Fin 2) * 8 ≤ (i 0).val ∧ (i 0).val < win0_2.index t (0 : Fin 2) * 8 + 8
      omega
    | ⟨1, _⟩ =>
      show win0_2.index t (1 : Fin 2) * 2048 ≤ (i 1).val ∧ (i 1).val < win0_2.index t (1 : Fin 2) * 2048 + 2048
      omega

end Cert.KernelIdeal.Arrays

end
-- ==== Proof.Tail.lean ====
/- The host's last operations after the kernel: of the sixteen rows of partial results keep rows 0 and 8 and add them.

   The [16, 2048] array is viewed as two groups of eight rows, row 0 of each group is kept, and the two kept rows are
   summed from zero; the result is laid out as one row. On the extended reals, column d of the outcome is
   0 + (P(0, d) + P(8, d)). -/
import proofs.«133327_j32195074851337_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Gen
open Idealize.ShloMosaic Idealize.ShloMosaic.ValueIdx

/-- The six operations after the kernel, as one function of the array of partial results. -/
def hostSum (P : (⟨S16x2048, .f32⟩ : BufTy).Contents (Elt Ideal)) : (⟨S1x2048, .f32⟩ : BufTy).Contents (Elt Ideal) :=
  broadcastInDim S1x2048 ![1] bcast_S2048_S1x2048_1
    (Host.reduceAdd (F := Ideal)
      (shapeCast S2x2048
        (extractStridedSlice S2x1x2048 ![0, 0, 0] (shapeCast S2x8x2048 P shapeCasts_S16x2048_S2x8x2048)
          slices_S2x8x2048_S2x1x2048_0_0_0)
        shapeCasts_S2x1x2048_S2x2048)
      (constant (F := Ideal) S_ .f32 0x00000000#32) reducesTo_S2x2048_S2048_d0 h_S_)

/-- Row `k` of the two kept rows is row 8 k of the partial results. -/
theorem kept_apply (P : (⟨S16x2048, .f32⟩ : BufTy).Contents (Elt Ideal)) (k : Fin 2) (d : Fin 2048) (h : 8 * k.val < 16) :
    shapeCast S2x2048
        (extractStridedSlice S2x1x2048 ![0, 0, 0] (shapeCast S2x8x2048 P shapeCasts_S16x2048_S2x8x2048)
          slices_S2x8x2048_S2x1x2048_0_0_0)
        shapeCasts_S2x1x2048_S2x2048 (ix2 k d)
      = P (ix2 (⟨8 * k.val, h⟩ : Fin 16) d) := by
  rw [shapeCast_apply _ shapeCasts_S2x1x2048_S2x2048 (ix2 k d) (ix3 k (0 : Fin 1) d) (by
    rw [Shape.rowMajor_val_three, Shape.rowMajor_val_two]
    show (k.val * 1 + 0) * 2048 + d.val = k.val * 2048 + d.val
    omega)]
  rw [extractStridedSlice_apply ![0, 0, 0] _ slices_S2x8x2048_S2x1x2048_0_0_0 (ix3 k (0 : Fin 1) d) (ix3 k (0 : Fin 8) d) (by
    intro a
    match a with
    | ⟨0, _⟩ => show k.val = 0 + k.val; omega
    | ⟨1, _⟩ => rfl
    | ⟨2, _⟩ => show d.val = 0 + d.val; omega)]
  exact shapeCast_apply P shapeCasts_S16x2048_S2x8x2048 (ix3 k (0 : Fin 8) d) (ix2 (⟨8 * k.val, h⟩ : Fin 16) d) (by
    rw [Shape.rowMajor_val_three, Shape.rowMajor_val_two]
    show 8 * k.val * 2048 + d.val = (k.val * 8 + 0) * 2048 + d.val
    omega)

/-- The row inserted at height `k` above column `d` when the two kept rows are summed away is (k, d). -/
theorem lift_kept (d : Fin 2048) (k : Fin 2) (hr : S2x2048.Reduces [0] S2048) :
    hr.lift (ix1 d) k = (ix2 k d : S2x2048.Idx) :=
  funext fun a => Fin.ext (by match a with | ⟨0, _⟩ => rfl | ⟨1, _⟩ => rfl)

/-- Column `d` of the outcome: zero plus rows 0 and 8 of the partial results. -/
theorem hostSum_apply (P : (⟨S16x2048, .f32⟩ : BufTy).Contents (Elt Ideal)) (d : Fin 2048) :
    hostSum P (ix2 (0 : Fin 1) d) = 0 + (P (ix2 (0 : Fin 16) d) + P (ix2 (8 : Fin 16) d)) := by
  unfold hostSum
  rw [broadcastInDim_apply ![1] bcast_S2048_S1x2048_1 _ (ix2 (0 : Fin 1) d) (ix1 d) (fun a => by
    match a with
    | ⟨0, _⟩ => show d.val = if (2048 : Nat) = 1 then 0 else d.val; rw [if_neg (by decide)])]
  simp only [Host.reduceAdd, Ideal.hostReduceAdd_def]
  have hr : S2x2048.Reduces [0] S2048 := by decide
  rw [Ideal.hostReduceAdd_single reducesTo_S2x2048_S2048_d0 hr]
  refine Eq.trans (b := Ideal.ofBits .f32 0x00000000#32 + ∑ k : Fin 2, P (ix2 (⟨8 * k.val, by have := k.isLt; omega⟩ : Fin 16) d)) ?_ ?_
  · refine congrArg (_ + ·) (Finset.sum_congr rfl fun k _ => ?_)
    rw [lift_kept d k hr]
    exact kept_apply P k d _
  · rw [Ideal.ofBits_zero_f32, Fin.sum_univ_two]
    rfl

end Cert.KernelIdeal.Tail

end
-- ==== Proof.KernelRun.lean ====
/- The kernel program's whole run, read back: its two results are `ys` and `carry` of the input, and the input is
   unchanged.

   The first result is the first output array of the kernel. The second is what the host's last operations make of the
   array of partial results: rows 0 and 8 added from zero, which is the two halves' sums added. -/
import proofs.«133327_j32195074851337_2_alg».proof.Proof.Arrays
import proofs.«133327_j32195074851337_2_alg».proof.Proof.Tail
import Idealize.ShloMosaic.Lib.StableHlo.Run

noncomputable section

namespace Cert.KernelIdeal.Results

open Cert.KernelIdeal Cert.KernelIdeal.Gen Cert.KernelIdeal.Steps Cert.BiasSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The second result's buffer is none of the kernel's arrays: it is written by the operations after the kernel. -/
theorem second_rest : main_v5 ∈ Pipeline.restRefs sig (cfgs 0).spec :=
  Pipeline.mem_restRefs_of main_v5 rfl (fun w => by fin_cases w <;> decide)

/-- The operations after the kernel compute `hostSum` of the array of partial results. -/
theorem tail_eq (c : Dev nD) :
    Pipeline.afterTail₀ cfgs (dats m) 0 (V0 m) [hostOps1] c main_v5 = Tail.hostSum (partials (inp m c)) := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v0_1) = partials (inp m c) :=
    (Pipeline.withArrays_arr spec0 launch0.win.arr_inj c _ _ 2).trans (Arrays.second_final m c)
  rw [e]
  rfl

/-- Rows 0 and 8 of the partial results, added from zero, are the second result. -/
theorem hostSum_partials (x : Input) : Tail.hostSum (partials x) = carry x := by
  funext j
  obtain ⟨u, d, rfl⟩ : ∃ (u : Fin 1) (d : Fin 2048), j = ix2 u d := ⟨j 0, j 1, eq_ix2 j⟩
  obtain rfl : u = 0 := Subsingleton.elim _ _
  exact (Tail.hostSum_apply (partials x) d).trans (carry_of_partials x d)

/-- Every weakly fair execution of the kernel program ends with the first result at `ys` of the input, the second at
    `carry` of the input, and the input as it was. -/
theorem run : θ_run defs (onTc (τ := τ) (main (F := Ideal))) ⟨m, fun _ => 0, ρ⟩ fun r => ∀ c : Dev nD,
      r.2.mem ((c : Thread nD τ).loc main_v0_0) = ys (inp m c)
      ∧ r.2.mem ((c : Thread nD τ).loc main_v5) = carry (inp m c)
      ∧ r.2.mem ((c : Thread nD τ).loc main_arg0) = inp m c :=
  (θ_run defs _ _).mono (fun r h c =>
      ⟨((h c).1 1).trans (Arrays.first_final m c),
        ((h c).2 main_v5 second_rest).trans ((tail_eq m c).trans (hostSum_partials (inp m c))),
        ((h c).1 0).trans (((dats m 0 c).arrAt_in 0 rfl _).trans ((A_eq m c 0).trans (V_main_arg0 m c)))⟩)
    (run_main m ρ)

end Cert.KernelIdeal.Results

end
-- ==== Proof.Reference.lean ====
/- The reference's two results, read off its operations one at a time, are the functions `ys` and `carry`.

   The reference broadcasts the f32 word of 1.0 to the input's shape, adds, reshapes [32768, 1, 2048] to [32768, 2048]
   for the first result, and sums the 32768 rows from zero for the second. -/
import proofs.«133327_j32195074851337_2_alg».proof.Proof.Gen.ReferenceIdeal.Read
import proofs.«133327_j32195074851337_2_alg».proof.Proof.Spec

noncomputable section

namespace Cert.ReferenceIdeal.Results

open Cert.ReferenceIdeal Cert.ReferenceIdeal.Read Cert.BiasSum
open Idealize.ShloMosaic Idealize.ShloMosaic.ValueIdx

/-- Every entry of the thrice-broadcast constant is the bias. -/
theorem ones_apply (i : S32768x1x2048.Idx) : val_main_v2 (F := Ideal) i = bias := by
  rw [val_main_v2_apply, val_main_v1_apply, val_main_v0_apply, val_main_cst_apply]
  rfl

/-- The sum the reference forms first: input plus bias, entry by entry. -/
theorem biased_apply (x : (⟨S32768x1x2048, .f32⟩ : BufTy).Contents (Elt Ideal)) (i : S32768x1x2048.Idx) :
    val_main_v3 (F := Ideal) x i = x i + bias := by
  rw [val_main_v3_apply, ones_apply]
  rfl

/-- The first result: the reshape keeps the row-major position, so entry (t, d) reads entry (t, 0, d). -/
theorem first_eq (x : (⟨S32768x1x2048, .f32⟩ : BufTy).Contents (Elt Ideal)) :
    val_main_v4 (F := Ideal) x = ys x := by
  funext j
  rw [val_main_v4_apply, biased_apply]
  unfold ys
  refine congrArg (x · + bias) (funext fun a => Fin.ext ?_)
  have h0 : (j 0).val < 32768 := (j 0).isLt
  have h1 : (j 1).val < 2048 := (j 1).isLt
  match a with
  | ⟨0, _⟩ => show ((j 0).val * 2048 + (j 1).val) / 2048 = (j 0).val; omega
  | ⟨1, _⟩ => rfl
  | ⟨2, _⟩ => show ((j 0).val * 2048 + (j 1).val) % 2048 = (j 1).val; omega

/-- The second result: zero plus the sum over all rows of the biased entries of the column. -/
theorem second_eq (x : (⟨S32768x1x2048, .f32⟩ : BufTy).Contents (Elt Ideal)) :
    val_main_v5 (F := Ideal) x = carry x := by
  funext j
  obtain ⟨u, d, rfl⟩ : ∃ (u : Fin 1) (d : Fin 2048), j = ix2 u d := ⟨j 0, j 1, eq_ix2 j⟩
  obtain rfl : u = 0 := Subsingleton.elim _ _
  rw [val_main_v5_apply, val_main_cst_0_apply]
  show Ideal.ofBits .f32 0x00000000#32 + _ = _
  rw [Ideal.ofBits_zero_f32, ← carry_of_rows x d]
  refine congrArg ((0 : EReal) + ·) (Finset.sum_congr rfl fun k _ => ?_)
  rw [biased_apply, row_of_lt _ _ _ k.isLt]
  refine congrArg (x · + bias) (funext fun a => Fin.ext ?_)
  match a with
  | ⟨0, _⟩ => rfl
  | ⟨1, _⟩ => rfl
  | ⟨2, _⟩ => rfl

end Cert.ReferenceIdeal.Results

end
-- ==== Proof.lean ====
/- The certificate: a kernel that adds 1 to every entry of a [32768, 1, 2048] array and also sums the biased rows,
   against a reference that does the same with one add and one sum.

   Both programs return ys(t, d) = x(t, 0, d) + 1 and carry(0, d) = the sum over all 32768 rows t of x(t, 0, d) + 1.
   The kernel walks the rows in 32 blocks of 1024, the two halves of the blocks each keeping a running sum that starts
   from zero; each half's sum lands in one row of a small array of partial results, and two operations after the kernel
   add the two. On the extended reals addition is commutative and associative without any side condition, so the
   regrouped sum is the reference's single sum (Total, Spec): the claim holds for every input, finite or not, and the
   precondition is never opened.
   The frames of the two kernel programs are the generated ones; the reference's frame is its generated run with the
   results dropped. Nothing was rewritten when the kernel was idealized, so `preserves` is `True`. -/
import proofs.«133327_j32195074851337_2_alg».proof.Defs
import proofs.«133327_j32195074851337_2_alg».proof.Proof.Gen.Kernel
import proofs.«133327_j32195074851337_2_alg».proof.Proof.Gen.Kernel.Frame
import proofs.«133327_j32195074851337_2_alg».proof.Proof.Gen.KernelIdeal
import proofs.«133327_j32195074851337_2_alg».proof.Proof.Gen.KernelIdeal.Frame
import proofs.«133327_j32195074851337_2_alg».proof.Proof.Gen.ReferenceIdeal
import proofs.«133327_j32195074851337_2_alg».proof.Proof.Gen.ReferenceIdeal.Run
import proofs.«133327_j32195074851337_2_alg».proof.Proof.Gen.ReferenceIdeal.Read
import proofs.«133327_j32195074851337_2_alg».proof.Proof.Gen.Pre_finite_inputs
import proofs.«133327_j32195074851337_2_alg».proof.Proof.KernelRun
import proofs.«133327_j32195074851337_2_alg».proof.Proof.Reference

noncomputable section

namespace Cert.Proof

open Idealize.ShloMosaic Idealize.ShloMosaic.TcCoe Idealize.SL.Sem Cert.BiasSum

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From inputs that agree, the kernel program ends with `ys` and `carry` of its input and so does the reference. -/
theorem algebraic : Cert.algebraic_KernelIdeal_ReferenceIdeal := by
  intro m ρ m' ρ' _ hagree
  refine ⟨fun c => ys (m ((c.tc : Thread Cert.KernelIdeal.nD Cert.KernelIdeal.τ).loc Cert.KernelIdeal.main_arg0)),
    fun c => carry (m ((c.tc : Thread Cert.KernelIdeal.nD Cert.KernelIdeal.τ).loc Cert.KernelIdeal.main_arg0)),
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.ReferenceIdeal.Read.val_main_v4_eq _).trans
      ((Cert.ReferenceIdeal.Results.first_eq _).trans (congrArg ys (hagree c)))
  · exact (Cert.ReferenceIdeal.Read.val_main_v5_eq _).trans
      ((Cert.ReferenceIdeal.Results.second_eq _).trans (congrArg carry (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
